-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16384x256 .f32) (main_arg1 : FVec F S16384x16384 .f32) (main_arg2 : FVec F S256x256 .f32) (main_arg3 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S1x256 : Shape := ⟨2, ![1, 256]⟩
abbrev S2048x256 : Shape := ⟨2, ![2048, 256]⟩
abbrev S128x16384 : Shape := ⟨2, ![128, 16384]⟩
abbrev S128x256 : Shape := ⟨2, ![128, 256]⟩

abbrev nBuf : Space → Nat
  | .hbm => 7
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S16384x256, .bf16⟩
  | .hbm, ⟨6, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S2048x256, .bf16⟩
  | .local _ .vmem, ⟨5, _⟩ => ⟨S2048x256, .bf16⟩
  | .local _ .vmem, ⟨6, _⟩ => ⟨S128x16384, .f32⟩
  | .local _ .vmem, ⟨7, _⟩ => ⟨S128x16384, .f32⟩
  | .local _ .vmem, ⟨8, _⟩ => ⟨S16384x256, .bf16⟩
  | .local _ .vmem, ⟨9, _⟩ => ⟨S128x256, .f32⟩
  | .local _ .vmem, ⟨10, _⟩ => ⟨S128x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  inb_S128x16384_S128x16384_0_0 : ∀ a, (![0, 0] : Fin 2 → Nat) a + S128x16384.size a ≤ S128x16384.size a
  h_S128x16384 : 0 < S128x16384.numel
  inb_S16384x256_S16384x256_0_0 : ∀ a, (![0, 0] : Fin 2 → Nat) a + S16384x256.size a ≤ S16384x256.size a
  h_S16384x256 : 0 < S16384x256.numel
  shapeCasts_S16384x256_S16384x256 : S16384x256.ShapeCasts S16384x256
  inb_S128x256_S128x256_0_0 : ∀ a, (![0, 0] : Fin 2 → Nat) a + S128x256.size a ≤ S128x256.size a
  h_S128x256 : 0 < S128x256.numel
  dot_S2048x256_S256x256_S2048x256_1_1_0_0_n_n_wf : DotDims.WF S2048x256 S256x256 S2048x256 [1] [1] [0] [0] [] []
  dot_S128x16384_S16384x256_S128x256_1_0_0_1_n_n_wf : DotDims.WF S128x16384 S16384x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S16384x256.size a
  hwx0_3 : ∀ i : grid0.Coords, EltTy.bits .bf16 = 32 ∨ (Rect.block (s := S16384x256) S2048x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S16384x16384.size a
  hwx1_0 : ∀ i : grid1.Coords, EltTy.bits .f32 = 32 ∨ (Rect.block (s := S16384x16384) S128x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x256.size a ≤ S16384x256.size a
  hwx1_1 : ∀ i : grid1.Coords, EltTy.bits .bf16 = 32 ∨ (Rect.block (s := S16384x256) S16384x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S16384x256.size a
  hwx1_2 : ∀ i : grid1.Coords, EltTy.bits .f32 = 32 ∨ (Rect.block (s := S16384x256) S128x256.size (cc1_transform_2 i) (hinb1_2 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S128x16384_S16384x256_S128x256_1_0_0_1_n_n : DotDims S128x16384 S16384x256 S128x256 where
  lhsContracting := [1]
  rhsContracting := [0]
  lhsNonContracting := [0]
  rhsNonContracting := [1]
  lhsBatch := []
  rhsBatch := []
  wf := dot_S128x16384_S16384x256_S128x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S16384x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S128x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x256 : Shape := ⟨2, ![16384, 256]⟩
abbrev S16384x16384 : Shape := ⟨2, ![16384, 16384]⟩
abbrev S256x256 : Shape := ⟨2, ![256, 256]⟩
abbrev S256 : Shape := ⟨1, ![256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S256, .f32⟩
  | .hbm, ⟨4, _⟩ => ⟨S16384x256, .f32⟩
  | .hbm, ⟨5, _⟩ => ⟨S1x256, .f32⟩
  | .hbm, ⟨6, _⟩ => ⟨S16384x256, .f32⟩
  | .hbm, ⟨7, _⟩ => ⟨S16384x256, .f32⟩
  | .hbm, ⟨8, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x256_S256x256_S16384x256_1_1_0_0_n_n_wf : DotDims.WF S16384x256 S256x256 S16384x256 [1] [1] [0] [0] [] []
  dot_S16384x16384_S16384x256_S16384x256_1_0_0_1_n_n_wf : DotDims.WF S16384x16384 S16384x256 S16384x256 [1] [0] [0] [1] [] []

variable [Facts₀]

def dot_S16384x256_S256x256_S16384x256_1_1_0_0_n_n : DotDims S16384x256 S256x256 S16384x256 where
  lhsContracting := [1]
  rhsContracting := [1]
  lhsNonContracting := [0]
  rhsNonContracting := [0]
  lhsBatch := []
  rhsBatch := []
  wf := dot_S16384x256_S256x256_S16384x256_1_1_0_0_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.Bodies.lean ====
/-
  The two kernel bodies, read at one entry of the block they store.

  The first body rounds its two loaded blocks to bf16 (the identity on extended reals), multiplies them contracting
  the second axis of both — entry (p, q) is the sum over d of left[p, d] · right[q, d] — into a zero accumulator, adds
  the one-row bias broadcast over the rows, and rounds again (the identity).  The second body multiplies its
  left block by the whole right operand, contracting the left's columns against the right's rows, into a zero
  accumulator: entry (p, q) is the sum over k of left[p, k] · right[k, q].
-/
import proofs.«163097_j58222576664706_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.ValueIdx

/-! ## The first product: both operands contracted along their second axis -/

theorem lhs0_row (i : S2048x256.Idx) (k : dot_S2048x256_S256x256_S2048x256_1_1_0_0_n_n.contr.Idx) :
    (dot_S2048x256_S256x256_S2048x256_1_1_0_0_n_n.lhsIdx i k 0).val = (i 0).val := by
  unfold DotDims.lhsIdx
  rw [dif_neg (show ¬(0 : Fin S2048x256.rank) ∈ dot_S2048x256_S256x256_S2048x256_1_1_0_0_n_n.lhsBatch by decide),
    dif_pos (show (0 : Fin S2048x256.rank) ∈ dot_S2048x256_S256x256_S2048x256_1_1_0_0_n_n.lhsNonContracting by decide)]
  rfl

theorem rhs0_row (i : S2048x256.Idx) (k : dot_S2048x256_S256x256_S2048x256_1_1_0_0_n_n.contr.Idx) :
    (dot_S2048x256_S256x256_S2048x256_1_1_0_0_n_n.rhsIdx i k 0).val = (i 1).val := by
  unfold DotDims.rhsIdx
  rw [dif_neg (show ¬(0 : Fin S256x256.rank) ∈ dot_S2048x256_S256x256_S2048x256_1_1_0_0_n_n.rhsBatch by decide),
    dif_pos (show (0 : Fin S256x256.rank) ∈ dot_S2048x256_S256x256_S2048x256_1_1_0_0_n_n.rhsNonContracting by decide)]
  rfl

/-- Entry (p, q) of the first product into a zero accumulator: row p of the left operand against row q of the right. -/
theorem matmul0_apply (l : FVec Ideal S2048x256 .bf16) (r : FVec Ideal S256x256 .bf16) (p : Fin 2048) (q : Fin 256) :
    matmul dot_S2048x256_S256x256_S2048x256_1_1_0_0_n_n none l r (constant (F := Ideal) S2048x256 .f32 0x00000000#32) (ix2 p q)
      = ∑ d : Fin 256, l (ix2 p d) * r (ix2 q d) := by
  simp only [matmul]
  rw [Ideal.matmul_constant_zero_apply,
    ← Equiv.sum_comp (contrEquiv1 dot_S2048x256_S256x256_S2048x256_1_1_0_0_n_n 256 rfl rfl).symm]
  refine Finset.sum_congr rfl fun d _ => ?_
  have hd := contrEquiv1_symm_val dot_S2048x256_S256x256_S2048x256_1_1_0_0_n_n 256 rfl rfl d
  have el : dot_S2048x256_S256x256_S2048x256_1_1_0_0_n_n.lhsIdx (ix2 p q)
      ((contrEquiv1 dot_S2048x256_S256x256_S2048x256_1_1_0_0_n_n 256 rfl rfl).symm d) = ix2 p d :=
    funext fun a => Fin.ext (by
      match a with
      | ⟨0, _⟩ => exact lhs0_row _ _
      | ⟨1, _⟩ => exact (dot_S2048x256_S256x256_S2048x256_1_1_0_0_n_n.lhsIdx_val_of_single rfl _ _).trans hd)
  have er : dot_S2048x256_S256x256_S2048x256_1_1_0_0_n_n.rhsIdx (ix2 p q)
      ((contrEquiv1 dot_S2048x256_S256x256_S2048x256_1_1_0_0_n_n 256 rfl rfl).symm d) = ix2 q d :=
    funext fun a => Fin.ext (by
      match a with
      | ⟨0, _⟩ => exact rhs0_row _ _
      | ⟨1, _⟩ => exact (dot_S2048x256_S256x256_S2048x256_1_1_0_0_n_n.rhsIdx_val_of_single rfl _ _).trans hd)
  rw [el, er]

/-- THE FIRST BODY at entry (p, q) of its block: row p of the left block against row q of the right block, plus the
    bias row at q. -/
theorem pay0_apply (x0 : Vec Ideal S2048x256 .f32) (x1 : Vec Ideal S256x256 .f32) (x2 : Vec Ideal S1x256 .f32)
    (p : Fin 2048) (q : Fin 256) :
    k0_pay1 x0 x1 x2 (ix2 p q) = (∑ d : Fin 256, x0 (ix2 p d) * x1 (ix2 q d)) + x2 (ix2 (0 : Fin 1) q) := by
  unfold k0_pay1
  rw [truncf_apply, addf_apply, matmul0_apply, shapeCast_self, broadcastTo_1b_ab_apply]
  rfl

/-! ## The second product: the left operand's columns against the right operand's rows -/

theorem lhs1_row (i : S128x256.Idx) (k : dot_S128x16384_S16384x256_S128x256_1_0_0_1_n_n.contr.Idx) :
    (dot_S128x16384_S16384x256_S128x256_1_0_0_1_n_n.lhsIdx i k 0).val = (i 0).val := by
  unfold DotDims.lhsIdx
  rw [dif_neg (show ¬(0 : Fin S128x16384.rank) ∈ dot_S128x16384_S16384x256_S128x256_1_0_0_1_n_n.lhsBatch by decide),
    dif_pos (show (0 : Fin S128x16384.rank) ∈ dot_S128x16384_S16384x256_S128x256_1_0_0_1_n_n.lhsNonContracting by decide)]
  rfl

theorem rhs1_col (i : S128x256.Idx) (k : dot_S128x16384_S16384x256_S128x256_1_0_0_1_n_n.contr.Idx) :
    (dot_S128x16384_S16384x256_S128x256_1_0_0_1_n_n.rhsIdx i k 1).val = (i 1).val := by
  unfold DotDims.rhsIdx
  rw [dif_neg (show ¬(1 : Fin S16384x256.rank) ∈ dot_S128x16384_S16384x256_S128x256_1_0_0_1_n_n.rhsBatch by decide),
    dif_pos (show (1 : Fin S16384x256.rank) ∈ dot_S128x16384_S16384x256_S128x256_1_0_0_1_n_n.rhsNonContracting by decide)]
  rfl

/-- Entry (p, q) of the second product into a zero accumulator: row p of the left operand against column q of the right. -/
theorem matmul1_apply (l : FVec Ideal S128x16384 .bf16) (r : FVec Ideal S16384x256 .bf16) (p : Fin 128) (q : Fin 256) :
    matmul dot_S128x16384_S16384x256_S128x256_1_0_0_1_n_n none l r (constant (F := Ideal) S128x256 .f32 0x00000000#32) (ix2 p q)
      = ∑ k : Fin 16384, l (ix2 p k) * r (ix2 k q) := by
  simp only [matmul]
  rw [Ideal.matmul_constant_zero_apply,
    ← Equiv.sum_comp (contrEquiv1 dot_S128x16384_S16384x256_S128x256_1_0_0_1_n_n 16384 rfl rfl).symm]
  refine Finset.sum_congr rfl fun k _ => ?_
  have hk := contrEquiv1_symm_val dot_S128x16384_S16384x256_S128x256_1_0_0_1_n_n 16384 rfl rfl k
  have el : dot_S128x16384_S16384x256_S128x256_1_0_0_1_n_n.lhsIdx (ix2 p q)
      ((contrEquiv1 dot_S128x16384_S16384x256_S128x256_1_0_0_1_n_n 16384 rfl rfl).symm k) = ix2 p k :=
    funext fun a => Fin.ext (by
      match a with
      | ⟨0, _⟩ => exact lhs1_row _ _
      | ⟨1, _⟩ => exact (dot_S128x16384_S16384x256_S128x256_1_0_0_1_n_n.lhsIdx_val_of_single rfl _ _).trans hk)
  have er : dot_S128x16384_S16384x256_S128x256_1_0_0_1_n_n.rhsIdx (ix2 p q)
      ((contrEquiv1 dot_S128x16384_S16384x256_S128x256_1_0_0_1_n_n 16384 rfl rfl).symm k) = ix2 k q :=
    funext fun a => Fin.ext (by
      match a with
      | ⟨0, _⟩ => exact (dot_S128x16384_S16384x256_S128x256_1_0_0_1_n_n.rhsIdx_val_of_single rfl _ _).trans hk
      | ⟨1, _⟩ => exact rhs1_col _ _)
  rw [el, er]

/-- THE SECOND BODY at entry (p, q) of its block: row p of the left block against column q of the right operand. -/
theorem pay1_apply (x0 : Vec Ideal S128x16384 .f32) (x1 : Vec Ideal S16384x256 .bf16) (p : Fin 128) (q : Fin 256) :
    k1_pay1 x0 x1 (ix2 p q) = ∑ k : Fin 16384, x0 (ix2 p k) * x1 (ix2 k q) := by
  unfold k1_pay1
  rw [matmul1_apply, shapeCast_self]
  rfl

end Cert.KernelIdeal.Bodies

end
-- ==== Proof.Spec.lean ====
/-
  The two whole-array functions both programs compute, over the extended reals.

  `proj x w b` is the affine map applied to every row of `x`: its entry (n, e) is the sum over d of
  x[n, d] · w[e, d] — row n of `x` against row e of `w`, that is x · wᵀ — plus the bias b[0, e], `b` being a
  single row.  `agg a h` is the matrix product a · h: its entry (n, e) is the sum over k of a[n, k] · h[k, e].
  The result of both programs is `result adj x w b = agg adj (proj x w (row b))`, the bias vector `b` read as one row.  Nothing here needs a finite entry: the sums are sums in
  the commutative monoid of the extended reals, and the two programs form the same sums of the same products.
-/
import Idealize.ShloMosaic.PureOps.Ideal
import Idealize.ShloMosaic.Lib.ValueIdx

noncomputable section

namespace Cert.Spec

open Idealize.ShloMosaic Idealize.ShloMosaic.ValueIdx

/-- Entry (n, e) of x · wᵀ + b: the sum over d of x[n, d] · w[e, d], plus b[0, e]. -/
def proj (x : (⟨2, ![16384, 256]⟩ : Shape).Idx → EReal) (w : (⟨2, ![256, 256]⟩ : Shape).Idx → EReal)
    (b : (⟨2, ![1, 256]⟩ : Shape).Idx → EReal) : (⟨2, ![16384, 256]⟩ : Shape).Idx → EReal :=
  fun i => (∑ d : Fin 256, x (ix2 (i 0) d) * w (ix2 (i 1) d)) + b (ix2 (0 : Fin 1) (i 1))

/-- Entry (n, e) of a · h: the sum over k of a[n, k] · h[k, e]. -/
def agg (a : (⟨2, ![16384, 16384]⟩ : Shape).Idx → EReal) (h : (⟨2, ![16384, 256]⟩ : Shape).Idx → EReal) :
    (⟨2, ![16384, 256]⟩ : Shape).Idx → EReal :=
  fun i => ∑ k : Fin 16384, a (ix2 (i 0) k) * h (ix2 k (i 1))

/-- A vector of 256 entries as the one row of a 1 × 256 matrix. -/
def row (b : (⟨1, ![256]⟩ : Shape).Idx → EReal) : (⟨2, ![1, 256]⟩ : Shape).Idx → EReal :=
  fun i => b (ix1 (i 1))

/-- What both programs compute: adj · (x · wᵀ + b). -/
def result (adj : (⟨2, ![16384, 16384]⟩ : Shape).Idx → EReal) (x : (⟨2, ![16384, 256]⟩ : Shape).Idx → EReal)
    (w : (⟨2, ![256, 256]⟩ : Shape).Idx → EReal) (b : (⟨1, ![256]⟩ : Shape).Idx → EReal) :
    (⟨2, ![16384, 256]⟩ : Shape).Idx → EReal :=
  agg adj (proj x w (row b))

theorem row_apply (b : (⟨1, ![256]⟩ : Shape).Idx → EReal) (z : Fin 1) (q : Fin 256) : row b (ix2 z q) = b (ix1 q) := rfl

theorem proj_apply (x : (⟨2, ![16384, 256]⟩ : Shape).Idx → EReal) (w : (⟨2, ![256, 256]⟩ : Shape).Idx → EReal)
    (b : (⟨2, ![1, 256]⟩ : Shape).Idx → EReal) (n : Fin 16384) (e : Fin 256) :
    proj x w b (ix2 n e) = (∑ d : Fin 256, x (ix2 n d) * w (ix2 e d)) + b (ix2 (0 : Fin 1) e) := rfl

theorem agg_apply (a : (⟨2, ![16384, 16384]⟩ : Shape).Idx → EReal) (h : (⟨2, ![16384, 256]⟩ : Shape).Idx → EReal)
    (n : Fin 16384) (e : Fin 256) :
    agg a h (ix2 n e) = ∑ k : Fin 16384, a (ix2 n k) * h (ix2 k e) := rfl

end Cert.Spec

end
-- ==== Proof.Region0.lean ====
/-
  The first region's output array, as one function of the arrays the region finds on entry.

  The grid has 8 points; point t stages rows 2048·t … 2048·t + 2047 of the first operand, the whole second operand and
  the whole one-row bias, and writes back rows 2048·t … 2048·t + 2047 of the output.  Entry (p, q) of what point t
  writes is row 2048·t + p of the first operand against row q of the second, plus the bias at q: that is entry
  (2048·t + p, q) of `Spec.proj`.  Row r of the output lies in the block of point r / 2048, so the blocks cover the
  array and the array after the region is `Spec.proj` of the entry contents.
-/
import proofs.«163097_j58222576664706_2_alg».proof.Proof.Gen.KernelIdeal.Frame
import proofs.«163097_j58222576664706_2_alg».proof.Proof.Bodies
import proofs.«163097_j58222576664706_2_alg».proof.Proof.Spec
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block indices at point t: the first operand's and the output's blocks are block-row t, the other two
    operands are whole. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 8 := lt_of_lt_of_eq t.isLt N_0

/-- Entry (p, d) of the first operand's block at point t is entry (2048·t + p, d) of the array. -/
theorem emb_rows (t : Fin cfg0.N) (p : Fin 2048) (d : Fin 256) (hn : t.val * 2048 + p.val < 16384) :
    ((cfg0.win 0).blk t).view.emb (ix2 p d) = ix2 (⟨t.val * 2048 + p.val, hn⟩ : Fin 16384) d := by
  obtain ⟨e0, e1, -⟩ := block_index t
  funext a; apply Fin.ext
  match a with
  | ⟨0, _⟩ => show win0_0.index t (0 : Fin 2) * 2048 + 1 * p.val = t.val * 2048 + p.val; omega
  | ⟨1, _⟩ => show win0_0.index t (1 : Fin 2) * 256 + 1 * d.val = d.val; omega

/-- The second operand's block is the whole array. -/
theorem emb_weight (t : Fin cfg0.N) (q : Fin 256) (d : Fin 256) :
    ((cfg0.win 1).blk t).view.emb (ix2 q d) = ix2 q d := by
  obtain ⟨-, -, e0, e1, -⟩ := block_index t
  funext a; apply Fin.ext
  match a with
  | ⟨0, _⟩ => show win0_1.index t (0 : Fin 2) * 256 + 1 * q.val = q.val; omega
  | ⟨1, _⟩ => show win0_1.index t (1 : Fin 2) * 256 + 1 * d.val = d.val; omega

/-- The bias row's block is the whole row. -/
theorem emb_bias (t : Fin cfg0.N) (q : Fin 256) :
    ((cfg0.win 2).blk t).view.emb (ix2 (0 : Fin 1) q) = ix2 (0 : Fin 1) q := by
  obtain ⟨-, -, -, -, e0, e1, -⟩ := block_index t
  funext a; apply Fin.ext
  match a with
  | ⟨0, _⟩ => show win0_2.index t (0 : Fin 2) * 1 + 1 * 0 = 0; omega
  | ⟨1, _⟩ => show win0_2.index t (1 : Fin 2) * 256 + 1 * q.val = q.val; omega

/-- Entry (p, q) of the output's block at point t is entry (2048·t + p, q) of the array. -/
theorem emb_out (t : Fin cfg0.N) (p : Fin 2048) (q : Fin 256) (hn : t.val * 2048 + p.val < 16384) :
    ((cfg0.win 3).blk t).view.emb (ix2 p q) = ix2 (⟨t.val * 2048 + p.val, hn⟩ : Fin 16384) q := by
  obtain ⟨-, -, -, -, -, -, e0, e1⟩ := block_index t
  funext a; apply Fin.ext
  match a with
  | ⟨0, _⟩ => show win0_3.index t (0 : Fin 2) * 2048 + 1 * p.val = t.val * 2048 + p.val; omega
  | ⟨1, _⟩ => show win0_3.index t (1 : Fin 2) * 256 + 1 * q.val = q.val; omega

/-- WHAT POINT t WRITES BACK is block t of `Spec.proj` of the arrays the region finds. -/
theorem flushed_eq (c : Dev nD) (t : Fin cfg0.N) :
    (dat0 V c).flushed 3 t
      = ((cfg0.win 3).blk t).view.read (Elt Ideal) (Spec.proj (V c main_arg0) (V c main_arg2) (V c main_v0)) := by
  show (cfg0.win 3).cut (grid0.coords t) ((dat0 V c).after 3 t) = _
  rw [after0_3]
  unfold out0_3
  rw [View.canon_unit_zero origin]
  simp only [View.ld_unit_zero (S := S2048x256) origin, View.ld_unit_zero (S := S256x256) origin,
    View.ld_unit_zero (S := S1x256) origin]
  funext j
  obtain ⟨p, q, rfl⟩ : ∃ (p : Fin 2048) (q : Fin 256), j = ix2 p q := ⟨j 0, j 1, eq_ix2 j⟩
  have hn : t.val * 2048 + p.val < 16384 := by have := point_lt t; have := p.isLt; omega
  show k0_pay1 (iblk0 V c 0 t) (iblk0 V c 1 t) (iblk0 V c 2 t) (ix2 p q)
    = Spec.proj (V c main_arg0) (V c main_arg2) (V c main_v0) (((cfg0.win 3).blk t).view.emb (ix2 p q))
  refine (Bodies.pay0_apply (iblk0 V c 0 t) (iblk0 V c 1 t) (iblk0 V c 2 t) p q).trans ?_
  rw [emb_out t p q hn, Spec.proj_apply]
  have hrow : ∀ d : Fin 256, iblk0 V c 0 t (ix2 p d) = V c main_arg0 (ix2 (⟨t.val * 2048 + p.val, hn⟩ : Fin 16384) d) :=
    fun d => by
      show V c main_arg0 (((cfg0.win 0).blk t).view.emb (ix2 p d)) = _
      rw [emb_rows t p d hn]
  have hweight : ∀ d : Fin 256, iblk0 V c 1 t (ix2 q d) = V c main_arg2 (ix2 q d) :=
    fun d => by
      show V c main_arg2 (((cfg0.win 1).blk t).view.emb (ix2 q d)) = _
      rw [emb_weight t q d]
  have hbias : iblk0 V c 2 t (ix2 (0 : Fin 1) q) = V c main_v0 (ix2 (0 : Fin 1) q) := by
    show V c main_v0 (((cfg0.win 2).blk t).view.emb (ix2 (0 : Fin 1) q)) = _
    rw [emb_bias t q]
  rw [hbias]
  exact congrArg (· + _) (Finset.sum_congr rfl fun d _ => by rw [hrow d, hweight d])

/-- An index of the array is in point t's block iff each coordinate is in the block's range on its axis. -/
theorem mem_block (t : Fin cfg0.N) (i : S16384x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v1).slice (win0_3.rect t)).set ↔ _
  rw [View.set_slice_whole, Rect.mem_set_unit]
  exact Iff.rfl

/-- Row r of the output is in the block of point r / 2048. -/
theorem cover (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  obtain ⟨t, ht⟩ : ∃ t : Fin cfg0.N, t.val = (i 0).val / 2048 :=
    ⟨⟨(i 0).val / 2048, by rw [show cfg0.N = 8 from N_0]; omega⟩, rfl⟩
  obtain ⟨-, -, -, -, -, -, e0, e1⟩ := block_index t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- THE OUTPUT ARRAY after the region: `Spec.proj` of the first operand, the second operand and the bias row as the
    region finds them. -/
theorem final (c : Dev nD) :
    (dat0 V c).arrAt 3 cfg0.N = Spec.proj (V c main_arg0) (V c main_arg2) (V c main_v0) :=
  (dat0 V c).arrAt_eq_of_cover 3 _ (fun t _ => flushed_eq V c t) cover

end Cert.KernelIdeal.Region0

end
-- ==== Proof.Region1.lean ====
/-
  The second region's output array, as one function of the arrays the region finds on entry.

  The grid has 128 points; point t stages rows 128·t … 128·t + 127 of the left operand and the whole right operand,
  and writes back rows 128·t … 128·t + 127 of the output.  Entry (p, q) of what point t writes is row 128·t + p of the
  left operand against column q of the right operand: entry (128·t + p, q) of `Spec.agg`.  Row r of the output lies in
  the block of point r / 128, so the blocks cover the array and the array after the region is `Spec.agg` of the entry
  contents.
-/
import proofs.«163097_j58222576664706_2_alg».proof.Proof.Gen.KernelIdeal.Frame
import proofs.«163097_j58222576664706_2_alg».proof.Proof.Bodies
import proofs.«163097_j58222576664706_2_alg».proof.Proof.Spec
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block indices at point t: the left operand's and the output's blocks are block-row t, the right operand
    is whole. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem points : grid1.N = 128 := by decide

theorem point_lt (t : Fin cfg1.N) : t.val < 128 := lt_of_lt_of_eq t.isLt points

/-- Entry (p, k) of the left operand's block at point t is entry (128·t + p, k) of the array. -/
theorem emb_rows (t : Fin cfg1.N) (p : Fin 128) (k : Fin 16384) (hn : t.val * 128 + p.val < 16384) :
    ((cfg1.win 0).blk t).view.emb (ix2 p k) = ix2 (⟨t.val * 128 + p.val, hn⟩ : Fin 16384) k := by
  obtain ⟨e0, e1, -⟩ := block_index t
  funext a; apply Fin.ext
  match a with
  | ⟨0, _⟩ => show win1_0.index t (0 : Fin 2) * 128 + 1 * p.val = t.val * 128 + p.val; omega
  | ⟨1, _⟩ => show win1_0.index t (1 : Fin 2) * 16384 + 1 * k.val = k.val; omega

/-- The right operand's block is the whole array. -/
theorem emb_right (t : Fin cfg1.N) (k : Fin 16384) (q : Fin 256) :
    ((cfg1.win 1).blk t).view.emb (ix2 k q) = ix2 k q := by
  obtain ⟨-, -, e0, e1, -⟩ := block_index t
  funext a; apply Fin.ext
  match a with
  | ⟨0, _⟩ => show win1_1.index t (0 : Fin 2) * 16384 + 1 * k.val = k.val; omega
  | ⟨1, _⟩ => show win1_1.index t (1 : Fin 2) * 256 + 1 * q.val = q.val; omega

/-- Entry (p, q) of the output's block at point t is entry (128·t + p, q) of the array. -/
theorem emb_out (t : Fin cfg1.N) (p : Fin 128) (q : Fin 256) (hn : t.val * 128 + p.val < 16384) :
    ((cfg1.win 2).blk t).view.emb (ix2 p q) = ix2 (⟨t.val * 128 + p.val, hn⟩ : Fin 16384) q := by
  obtain ⟨-, -, -, -, e0, e1⟩ := block_index t
  funext a; apply Fin.ext
  match a with
  | ⟨0, _⟩ => show win1_2.index t (0 : Fin 2) * 128 + 1 * p.val = t.val * 128 + p.val; omega
  | ⟨1, _⟩ => show win1_2.index t (1 : Fin 2) * 256 + 1 * q.val = q.val; omega

set_option maxRecDepth 100000 in
/-- WHAT POINT t WRITES BACK is block t of `Spec.agg` of the arrays the region finds. -/
theorem flushed_eq (c : Dev nD) (t : Fin cfg1.N) :
    (dat1 V c).flushed 2 t
      = ((cfg1.win 2).blk t).view.read (Elt Ideal) (Spec.agg (V c main_arg1) (V c main_v1)) := by
  show (cfg1.win 2).cut (grid1.coords t) ((dat1 V c).after 2 t) = _
  rw [after1_2]
  unfold out1_2
  rw [View.canon_unit_zero origin]
  simp only [View.ld_unit_zero (S := S128x16384) origin, View.ld_unit_zero (S := S16384x256) origin]
  funext j
  obtain ⟨p, q, rfl⟩ : ∃ (p : Fin 128) (q : Fin 256), j = ix2 p q := ⟨j 0, j 1, eq_ix2 j⟩
  have hn : t.val * 128 + p.val < 16384 := by have := point_lt t; have := p.isLt; omega
  show k1_pay1 (iblk1 V c 0 t) (iblk1 V c 1 t) (ix2 p q)
    = Spec.agg (V c main_arg1) (V c main_v1) (((cfg1.win 2).blk t).view.emb (ix2 p q))
  refine (Bodies.pay1_apply (iblk1 V c 0 t) (iblk1 V c 1 t) p q).trans ?_
  rw [emb_out t p q hn, Spec.agg_apply]
  have hrow : ∀ k : Fin 16384, iblk1 V c 0 t (ix2 p k) = V c main_arg1 (ix2 (⟨t.val * 128 + p.val, hn⟩ : Fin 16384) k) :=
    fun k => by
      show V c main_arg1 (((cfg1.win 0).blk t).view.emb (ix2 p k)) = _
      rw [emb_rows t p k hn]
  have hright : ∀ k : Fin 16384, iblk1 V c 1 t (ix2 k q) = V c main_v1 (ix2 k q) :=
    fun k => by
      show V c main_v1 (((cfg1.win 1).blk t).view.emb (ix2 k q)) = _
      rw [emb_right t k q]
  exact Finset.sum_congr rfl fun k _ => by rw [hrow k, hright k]

/-- An index of the array is in point t's block iff each coordinate is in the block's range on its axis. -/
theorem mem_block (t : Fin cfg1.N) (i : S16384x256.Idx) :
    i ∈ ((cfg1.win 2).blk t).view.set ↔ ∀ a : Fin 2, win1_2.index t a * S128x256.size a ≤ (i a).val
      ∧ (i a).val < win1_2.index t a * S128x256.size a + S128x256.size a := by
  show i ∈ ((View.whole main_v2).slice (win1_2.rect t)).set ↔ _
  rw [View.set_slice_whole, Rect.mem_set_unit]
  exact Iff.rfl

/-- Row r of the output is in the block of point r / 128. -/
theorem cover (i : S16384x256.Idx) :
    ∃ t : Fin cfg1.N, (cfg1.win 2).flush t = true ∧ i ∈ ((cfg1.win 2).blk t).view.set := by
  have hi0 : (i 0).val < 16384 := (i 0).isLt
  have hi1 : (i 1).val < 256 := (i 1).isLt
  obtain ⟨t, ht⟩ : ∃ t : Fin cfg1.N, t.val = (i 0).val / 128 :=
    ⟨⟨(i 0).val / 128, by rw [show cfg1.N = 128 from points]; omega⟩, rfl⟩
  obtain ⟨-, -, -, -, e0, e1⟩ := block_index t
  refine ⟨t, flush1_2 t, ?_⟩
  rw [mem_block]
  intro a
  match a with
  | ⟨0, _⟩ =>
    show win1_2.index t (0 : Fin 2) * 128 ≤ (i 0).val ∧ (i 0).val < win1_2.index t (0 : Fin 2) * 128 + 128
    omega
  | ⟨1, _⟩ =>
    show win1_2.index t (1 : Fin 2) * 256 ≤ (i 1).val ∧ (i 1).val < win1_2.index t (1 : Fin 2) * 256 + 256
    omega

/-- THE OUTPUT ARRAY after the region: `Spec.agg` of the left and right operands as the region finds them. -/
theorem final (c : Dev nD) :
    (dat1 V c).arrAt 2 cfg1.N = Spec.agg (V c main_arg1) (V c main_v1) :=
  (dat1 V c).arrAt_eq_of_cover 2 _ (fun t _ => flushed_eq V c t) cover

end Cert.KernelIdeal.Region1

end
-- ==== Proof.KernelRun.lean ====
/-
  The kernel program's run with its result named, at the extended reals.

  The program is a host reshape of the bias vector to one row, then the two regions.  Its buffers at the three
  boundaries are a fold from the launch memory: after the reshape; after the first region, whose output array holds
  `Spec.proj` of the first argument, the third argument and the bias row (Region0); after the second region, whose
  output array holds `Spec.agg` of the second argument and the first region's output (Region1).  No argument is
  written on the way, so each is read back as launched, and the result buffer ends at
  `Spec.result adj x w b = Spec.agg adj (Spec.proj x w (Spec.row b))`.
-/
import proofs.«163097_j58222576664706_2_alg».proof.Proof.Gen.KernelIdeal.Frame
import proofs.«163097_j58222576664706_2_alg».proof.Proof.Region0
import proofs.«163097_j58222576664706_2_alg».proof.Proof.Region1
import Idealize.ShloMosaic.Lib.StableHlo.Run
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The buffers at the boundaries -/

/-- The reshape leaves the bias vector as the one row of a 1 × 256 matrix: entry (0, q) is b[q]. -/
theorem entry_bias (c : Dev nD) :
    V1 m ρ c main_v0 = Spec.row (m ((c : Thread nD τ).loc main_arg3)) := by
  have e : (V1 m ρ c main_v0 : S1x256.Idx → EReal)
      = fun i => shapeCast S1x256 (m ((c : Thread nD τ).loc main_arg3)) shapeCasts_S256_S1x256 i := by
    show StableHlo.after hostOps0 (W0 m ρ c) (Proc.devRef .tc main_v0) = _
    after_results
    rfl
  refine e.trans (funext fun i => ?_)
  obtain ⟨z, q, rfl⟩ : ∃ (z : Fin 1) (q : Fin 256), i = ix2 z q := ⟨i 0, i 1, eq_ix2 i⟩
  rw [Spec.row_apply]
  exact shapeCast_a_1a_apply _ _ z q

/-- The first region finds the first argument as launched: nothing before it writes that buffer. -/
theorem entry_arg0 (c : Dev nD) : V1 m ρ c main_arg0 = m ((c : Thread nD τ).loc main_arg0) :=
  ((W2_arr m ρ c 0).trans (((dat0 (V1 m ρ) c).arrAt_in 0 rfl _).trans (A_eq0 (V1 m ρ) c 0))).symm.trans
    ((W3_of_ne m ρ c main_arg0 (by decide)).symm.trans (W3_main_arg0 m ρ c))

/-- The first region finds the third argument as launched. -/
theorem entry_arg2 (c : Dev nD) : V1 m ρ c main_arg2 = m ((c : Thread nD τ).loc main_arg2) :=
  ((W2_arr m ρ c 1).trans (((dat0 (V1 m ρ) c).arrAt_in 1 rfl _).trans (A_eq0 (V1 m ρ) c 1))).symm.trans
    ((W3_of_ne m ρ c main_arg2 (by decide)).symm.trans (W3_main_arg2 m ρ c))

/-- The second region finds the second argument as launched. -/
theorem mid_arg1 (c : Dev nD) : V2 m ρ c main_arg1 = m ((c : Thread nD τ).loc main_arg1) :=
  ((W3_arr m ρ c 0).trans (((dat1 (V2 m ρ) c).arrAt_in 0 rfl _).trans (A_eq1 (V2 m ρ) c 0))).symm.trans
    (W3_main_arg1 m ρ c)

/-- The second region finds, as its right operand, what the first region's write-backs left. -/
theorem mid_proj (c : Dev nD) : V2 m ρ c main_v1 = (dat0 (V1 m ρ) c).arrAt 3 cfg0.N :=
  W2_arr m ρ c 3

/-- THE RESULT BUFFER at the last boundary is adj · (x · wᵀ + b) of the launch contents. -/
theorem result_eq (c : Dev nD) :
    W3 m ρ c (Proc.devRef .tc main_v2)
      = Spec.result (m ((c : Thread nD τ).loc main_arg1)) (m ((c : Thread nD τ).loc main_arg0))
          (m ((c : Thread nD τ).loc main_arg2)) (m ((c : Thread nD τ).loc main_arg3)) := by
  refine (W3_arr m ρ c 2).trans ?_
  rw [Region1.final (V2 m ρ) c, mid_arg1 m ρ c, mid_proj m ρ c, Region0.final (V1 m ρ) c,
    entry_arg0 m ρ c, entry_arg2 m ρ c, entry_bias m ρ c]
  rfl

/-! ## The run -/

set_option backward.isDefEq.respectTransparency.types false in
/-- Every weakly fair execution of the program terminates, nothing faulting, with the result buffer at the last
    boundary's contents and the arguments as launched: the segments' launch, the last thread state read against the
    final state at the result buffer and at each argument. -/
theorem run_boundary : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

/-- THE RUN, READ: the result buffer ends at adj · (x · wᵀ + b) of the launch contents, the arguments unchanged. -/
theorem run : θ_run defs (onTc (τ := τ) (main (F := Ideal))) ⟨m, fun _ => 0, ρ⟩ (fun r => ∀ c : Dev nD,
      r.2.mem ((c.tc : Thread nD τ).loc main_v2)
        = Spec.result (m ((c.tc : Thread nD τ).loc main_arg1)) (m ((c.tc : Thread nD τ).loc main_arg0))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_boundary m ρ)

end Cert.KernelIdeal.Run

end
-- ==== Proof.RefSide.lean ====
/-
  The reference's result is `Spec.result`.

  The reference multiplies x by wᵀ (entry (k, e): the sum over d of x[k, d] · w[e, d]), adds the bias broadcast first
  to one row and then over all rows (entry (k, e): b[e]), and multiplies adj by that (entry (n, e): the sum over k of
  adj[n, k] · h[k, e]).  Read entry by entry these are exactly the sums `Spec.agg` and `Spec.proj` write.
-/
import proofs.«163097_j58222576664706_2_alg».proof.Proof.Gen.ReferenceIdeal.Read
import proofs.«163097_j58222576664706_2_alg».proof.Proof.Spec

noncomputable section

namespace Cert.ReferenceIdeal.RefValue

open Cert.ReferenceIdeal Cert.ReferenceIdeal.Read Idealize.ShloMosaic Idealize.ShloMosaic.ValueIdx

/-- The reference's last stage, as a function of the four arguments, is adj · (x · wᵀ + b). -/
theorem reference_eq (x0 : (⟨S16384x256, .f32⟩ : BufTy).Contents (Elt Ideal))
    (x1 : (⟨S16384x16384, .f32⟩ : BufTy).Contents (Elt Ideal)) (x2 : (⟨S256x256, .f32⟩ : BufTy).Contents (Elt Ideal))
    (x3 : (⟨S256, .f32⟩ : BufTy).Contents (Elt Ideal)) :
    val_main_v4 (F := Ideal) x0 x1 x2 x3 = Spec.result x1 x0 x2 x3 := by
  funext i
  obtain ⟨n, e, rfl⟩ : ∃ (n : Fin 16384) (e : Fin 256), i = ix2 n e := ⟨i 0, i 1, eq_ix2 i⟩
  rw [val_main_v4_apply]
  show _ = ∑ k : Fin 16384, x1 (ix2 n k) * Spec.proj x0 x2 (Spec.row x3) (ix2 k e)
  refine Finset.sum_congr rfl fun k _ => ?_
  have el : lidx_main_v4 (ix2 n e) k = ix2 n k :=
    funext fun a => Fin.ext (by match a with | ⟨0, _⟩ => rfl | ⟨1, _⟩ => rfl)
  have er : ridx_main_v4 (ix2 n e) k = ix2 k e :=
    funext fun a => Fin.ext (by match a with | ⟨0, _⟩ => rfl | ⟨1, _⟩ => rfl)
  rw [el, er]
  refine congrArg (x1 (ix2 n k) * ·) ?_
  have e0 : ∀ d : Fin 256, lidx_main_v0 (ix2 k e) d = ix2 k d :=
    fun d => funext fun a => Fin.ext (by match a with | ⟨0, _⟩ => rfl | ⟨1, _⟩ => rfl)
  have e1 : ∀ d : Fin 256, ridx_main_v0 (ix2 k e) d = ix2 e d :=
    fun d => funext fun a => Fin.ext (by match a with | ⟨0, _⟩ => rfl | ⟨1, _⟩ => rfl)
  have e2 : idx_main_v1 (idx_main_v2 (ix2 k e)) = ix1 e :=
    funext fun a => Fin.ext (by match a with | ⟨0, _⟩ => rfl)
  rw [val_main_v3_apply, val_main_v0_apply, val_main_v2_apply, val_main_v1_apply, Spec.proj_apply, Spec.row_apply, e2]
  simp only [e0, e1]
  rfl

end Cert.ReferenceIdeal.RefValue

end
-- ==== Proof.lean ====
/-
  The kernel computes adj · (x · wᵀ + b) in two steps, each a grid of row blocks: first h = x · wᵀ + b, 2048 rows at
  a time, each block one matrix product contracting the second axis of both operands plus the bias row broadcast
  over the rows; then out = adj · h, 128 rows at a time, each block one matrix product of a block of rows of adj with
  the whole of h.  The reference computes the same two products and the same sum on whole arrays.  The kernel's
  roundings to bf16 are the identity on extended reals and a product into a zero accumulator is the plain sum of
  products, so entry (n, e) of both results is the sum over k of adj[n, k] · ((the sum over d of x[k, d] · w[e, d])
  + b[e]): the same sums of the same products, with no law of arithmetic between them.  Finiteness of the inputs is
  therefore never used.

  Spec states that function (`Spec.result`); Bodies reads the two kernel bodies at an entry; Region0 and Region1 show
  that each region's output array is its whole-array function of the arrays the region finds; KernelRun follows the
  buffers through the program and names the result; RefSide reads the reference's run entry by entry.  The two
  word-level and idealized kernel frames are the generated ones; the reference's frame is its generated run with the
  result dropped; the idealization rewrote nothing, so there is nothing to preserve.
-/
import proofs.«163097_j58222576664706_2_alg».proof.Defs
import proofs.«163097_j58222576664706_2_alg».proof.Proof.Gen.Kernel
import proofs.«163097_j58222576664706_2_alg».proof.Proof.Gen.Kernel.Skeleton
import proofs.«163097_j58222576664706_2_alg».proof.Proof.Gen.Kernel.Launch
import proofs.«163097_j58222576664706_2_alg».proof.Proof.Gen.Kernel.Points
import proofs.«163097_j58222576664706_2_alg».proof.Proof.Gen.Kernel.Frame
import proofs.«163097_j58222576664706_2_alg».proof.Proof.Gen.KernelIdeal
import proofs.«163097_j58222576664706_2_alg».proof.Proof.Gen.KernelIdeal.Skeleton
import proofs.«163097_j58222576664706_2_alg».proof.Proof.Gen.KernelIdeal.Launch
import proofs.«163097_j58222576664706_2_alg».proof.Proof.Gen.KernelIdeal.Points
import proofs.«163097_j58222576664706_2_alg».proof.Proof.Gen.KernelIdeal.Frame
import proofs.«163097_j58222576664706_2_alg».proof.Proof.Gen.ReferenceIdeal
import proofs.«163097_j58222576664706_2_alg».proof.Proof.Gen.ReferenceIdeal.Run
import proofs.«163097_j58222576664706_2_alg».proof.Proof.Gen.ReferenceIdeal.Read
import proofs.«163097_j58222576664706_2_alg».proof.Proof.Gen.Pre_finite_inputs
import proofs.«163097_j58222576664706_2_alg».proof.Proof.KernelRun
import proofs.«163097_j58222576664706_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at adj · (x · wᵀ + b) of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
